-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x100 : Shape := ⟨2, ![50000, 100]⟩
abbrev S100x100 : Shape := ⟨2, ![100, 100]⟩
abbrev S800000 : Shape := ⟨1, ![800000]⟩
abbrev S2x800000 : Shape := ⟨2, ![2, 800000]⟩
abbrev S_ : Shape := ⟨0, ![]⟩

class Facts : Prop where
  bcast_S_S50000x100 : S_.BroadcastsInDim S50000x100 (![] : Fin 0 → Fin S50000x100.rank)
  reducesTo_S50000x100_S_d0_1 : S50000x100.ReducesTo [0, 1] S_
  h_S_ : 0 < S_.numel
  bcast_S_S100x100 : S_.BroadcastsInDim S100x100 (![] : Fin 0 → Fin S100x100.rank)
  reducesTo_S100x100_S_d0_1 : S100x100.ReducesTo [0, 1] S_
  bcast_S_S800000 : S_.BroadcastsInDim S800000 (![] : Fin 0 → Fin S800000.rank)
  reducesTo_S800000_S_d0 : S800000.ReducesTo [0] S_

variable [Facts]

def fn {F : FTy → Type} [FloatOps F] (main_arg0 : FVec F S50000x100 .f32) (main_arg1 : FVec F S100x100 .f32) (main_arg2 : FVec F S800000 .f32) (main_arg3 : IVec S2x800000 32) : IVec S_ 1 :=
  let main_v0 : FVec F S50000x100 .f32 := Host.absf main_arg0
  let main_cst : FVec F S_ .f32 := constant S_ .f32 0x7F800000#32
  let main_v1 : FVec F S50000x100 .f32 := broadcastInDim S50000x100 ![] bcast_S_S50000x100 main_cst
  let main_v2 : IVec S50000x100 1 := cmpf .olt main_v0 main_v1
  let main_c : IVec S_ 1 := constantI S_ 1 1#1
  let main_v3 : IVec S_ 1 := (fun x v => Host.reduce IntOp.andi x v reducesTo_S50000x100_S_d0_1 h_S_) main_v2 main_c
  let main_v4 : FVec F S100x100 .f32 := Host.absf main_arg1
  let main_cst_0 : FVec F S_ .f32 := constant S_ .f32 0x7F800000#32
  let main_v5 : FVec F S100x100 .f32 := broadcastInDim S100x100 ![] bcast_S_S100x100 main_cst_0
  let main_v6 : IVec S100x100 1 := cmpf .olt main_v4 main_v5
  let main_c_1 : IVec S_ 1 := constantI S_ 1 1#1
  let main_v7 : IVec S_ 1 := (fun x v => Host.reduce IntOp.andi x v reducesTo_S100x100_S_d0_1 h_S_) main_v6 main_c_1
  let main_v8 : IVec S_ 1 := andi main_v3 main_v7
  let main_v9 : FVec F S800000 .f32 := Host.absf main_arg2
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  main_v13
-- ==== Kernel.lean ====
abbrev S50000x100 : Shape := ⟨2, ![50000, 100]⟩
abbrev S100x100 : Shape := ⟨2, ![100, 100]⟩
abbrev S800000 : Shape := ⟨1, ![800000]⟩
abbrev S2x800000 : Shape := ⟨2, ![2, 800000]⟩
abbrev S1x800000 : Shape := ⟨2, ![1, 800000]⟩
abbrev S5000x100 : Shape := ⟨2, ![5000, 100]⟩
abbrev S800000x1 : Shape := ⟨2, ![800000, 1]⟩
abbrev S_ : Shape := ⟨0, ![]⟩
abbrev S800000x100 : Shape := ⟨2, ![800000, 100]⟩
abbrev S5000 : Shape := ⟨1, ![5000]⟩
abbrev S5000x1 : Shape := ⟨2, ![5000, 1]⟩

abbrev nBuf : Space → Nat
  | .hbm => 26
  | .vmem => 9
  | .smem => 0
  | _ => 0

abbrev bufTy : (tb : Table) → Fin (tcTables nBuf tb) → BufTy
  | .hbm, ⟨0, _⟩ => ⟨S50000x100, .f32⟩
  | .hbm, ⟨1, _⟩ => ⟨S100x100, .f32⟩
  | .hbm, ⟨2, _⟩ => ⟨S800000, .f32⟩
  | .hbm, ⟨3, _⟩ => ⟨S2x800000, .i32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S50000x100, .f32⟩
  | .hbm, ⟨9, _⟩ => ⟨S800000x1, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x100, .f32⟩
  | .hbm, ⟨19, _⟩ => ⟨S800000x100, .f32⟩
  | .hbm, ⟨20, _⟩ => ⟨S800000x100, .f32⟩
  | .hbm, ⟨21, _⟩ => ⟨S_, .f32⟩
  | .hbm, ⟨22, _⟩ => ⟨S50000x100, .f32⟩
  | .hbm, ⟨23, _⟩ => ⟨S800000x1, .i32⟩
  | .hbm, ⟨24, _⟩ => ⟨S50000x100, .f32⟩
  | .hbm, ⟨25, _⟩ => ⟨S50000x100, .f32⟩
  | .local _ .vmem, ⟨0, _⟩ => ⟨S5000x100, .f32⟩
  | .local _ .vmem, ⟨1, _⟩ => ⟨S5000x100, .f32⟩
  | .local _ .vmem, ⟨2, _⟩ => ⟨S100x100, .f32⟩
  | .local _ .vmem, ⟨3, _⟩ => ⟨S5000x100, .f32⟩
  | .local _ .vmem, ⟨4, _⟩ => ⟨S5000x100, .f32⟩
  | .local _ .vmem, ⟨5, _⟩ => ⟨S5000x100, .f32⟩
  | .local _ .vmem, ⟨6, _⟩ => ⟨S5000x100, .f32⟩
  | .local _ .vmem, ⟨7, _⟩ => ⟨S5000x100, .f32⟩
  | .local _ .vmem, ⟨8, _⟩ => ⟨S5000x100, .f32⟩
  | _, _ => ⟨S50000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x100 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S5000x100_S5000x100_0_0 : ∀ a, (![0, 0] : Fin 2 → Nat) a + S5000x100.size a ≤ S5000x100.size a
  h_S5000x100 : 0 < S5000x100.numel
  bitsLt_bf16_f32 : FTy.bits .bf16 < FTy.bits .f32
  inb_S100x100_S100x100_0_0 : ∀ a, (![0, 0] : Fin 2 → Nat) a + S100x100.size a ≤ S100x100.size a
  h_S100x100 : 0 < S100x100.numel
  transposes_S100x100_p1_0_S100x100 : S100x100.Transposes [1, 0] S100x100
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x100_0_1 : S800000x1.BroadcastsInDim S800000x100 (![0, 1] : Fin 2 → Fin S800000x100.rank)
  bcast_S_S50000x100 : S_.BroadcastsInDim S50000x100 (![] : Fin 0 → Fin S50000x100.rank)
  shapeCasts_S5000x100_S5000x100 : S5000x100.ShapeCasts S5000x100
  reduces_S5000x100_S5000 : S5000x100.Reduces [1] S5000
  shapeCasts_S5000_S5000x1 : S5000.ShapeCasts S5000x1
  broadcasts_S5000x1_S5000x100 : S5000x1.Broadcasts S5000x100
  dot_S5000x100_S100x100_S5000x100_1_0_0_1_n_n_wf : DotDims.WF S5000x100 S100x100 S5000x100 [1] [0] [0] [1] [] []
  gather_S50000x100_S800000x1_S800000x100_1_0_n_n_0_1_1100_wf : GatherDims.WF S50000x100 S800000x1 S800000x100 [1] [0] [] [0] [] 1 ![1, 100]
  scatter_S50000x100_S800000x1_S800000x100_1_0_0_1_wf : ScatterDims.WF S50000x100 S800000x1 S800000x100 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x100.size a ≤ S50000x100.size a
  hwx0_0 : ∀ i : grid0.Coords, EltTy.bits .f32 = 32 ∨ (Rect.block (s := S50000x100) S5000x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x100.size a ≤ S100x100.size a
  hwx0_1 : ∀ i : grid0.Coords, EltTy.bits .f32 = 32 ∨ (Rect.block (s := S100x100) S100x100.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x100.size a ≤ S50000x100.size a
  hwx0_2 : ∀ i : grid0.Coords, EltTy.bits .f32 = 32 ∨ (Rect.block (s := S50000x100) S5000x100.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x100.size a ≤ S50000x100.size a
  hwx1_0 : ∀ i : grid1.Coords, EltTy.bits .f32 = 32 ∨ (Rect.block (s := S50000x100) S5000x100.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x100.size a ≤ S50000x100.size a
  hwx1_1 : ∀ i : grid1.Coords, EltTy.bits .f32 = 32 ∨ (Rect.block (s := S50000x100) S5000x100.size (cc1_transform_1 i) (hinb1_1 i)).WholeWords (EltTy.packing .f32)

variable [Facts₀]

def dot_S5000x100_S100x100_S5000x100_1_0_0_1_n_n : DotDims S5000x100 S100x100 S5000x100 where
  lhsContracting := [1]
  rhsContracting := [0]
  lhsNonContracting := [0]
  rhsNonContracting := [1]
  lhsBatch := []
  rhsBatch := []
  wf := dot_S5000x100_S100x100_S5000x100_1_0_0_1_n_n_wf
def gather_S50000x100_S800000x1_S800000x100_1_0_n_n_0_1_1100 : GatherDims S50000x100 S800000x1 S800000x100 where
  offsetDims := [1]
  collapsedSliceDims := [0]
  operandBatchingDims := []
  startIndicesBatchingDims := []
  startIndexMap := [0]
  indexVectorDim := 1
  sliceSizes := ![1, 100]
  wf := gather_S50000x100_S800000x1_S800000x100_1_0_n_n_0_1_1100_wf
def scatter_S50000x100_S800000x1_S800000x100_1_0_0_1 : ScatterDims S50000x100 S800000x1 S800000x100 where
  updateWindowDims := [1]
  insertedWindowDims := [0]
  scatterDimsToOperandDims := [0]
  indexVectorDim := 1
  wf := scatter_S50000x100_S800000x1_S800000x100_1_0_0_1_wf

abbrev win0_0 : Pipeline.Window sig grid0 :=
  Pipeline.Window.ofSpec (Memref.whole main_arg0) S5000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S100x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x100.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S5000x100.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x100.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S50000x100 : Shape := ⟨2, ![50000, 100]⟩
abbrev S100x100 : Shape := ⟨2, ![100, 100]⟩
abbrev S800000 : Shape := ⟨1, ![800000]⟩
abbrev S2x800000 : Shape := ⟨2, ![2, 800000]⟩
abbrev S1x800000 : Shape := ⟨2, ![1, 800000]⟩
abbrev S800000x1 : Shape := ⟨2, ![800000, 1]⟩
abbrev S_ : Shape := ⟨0, ![]⟩
abbrev S800000x100 : Shape := ⟨2, ![800000, 100]⟩
abbrev S50000 : Shape := ⟨1, ![50000]⟩
abbrev S50000x1 : Shape := ⟨2, ![50000, 1]⟩

abbrev nBuf : Space → Nat
  | .hbm => 36
  | .vmem => 0
  | .smem => 0
  | _ => 0

abbrev bufTy : (tb : Table) → Fin (tcTables nBuf tb) → BufTy
  | .hbm, ⟨0, _⟩ => ⟨S50000x100, .f32⟩
  | .hbm, ⟨1, _⟩ => ⟨S100x100, .f32⟩
  | .hbm, ⟨2, _⟩ => ⟨S800000, .f32⟩
  | .hbm, ⟨3, _⟩ => ⟨S2x800000, .i32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S100x100, .f32⟩
  | .hbm, ⟨9, _⟩ => ⟨S50000x100, .f32⟩
  | .hbm, ⟨10, _⟩ => ⟨S800000x1, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x100, .f32⟩
  | .hbm, ⟨20, _⟩ => ⟨S800000x100, .f32⟩
  | .hbm, ⟨21, _⟩ => ⟨S800000x100, .f32⟩
  | .hbm, ⟨22, _⟩ => ⟨S_, .f32⟩
  | .hbm, ⟨23, _⟩ => ⟨S50000x100, .f32⟩
  | .hbm, ⟨24, _⟩ => ⟨S800000x1, .i32⟩
  | .hbm, ⟨25, _⟩ => ⟨S50000x100, .f32⟩
  | .hbm, ⟨26, _⟩ => ⟨S50000x100, .f32⟩
  | .hbm, ⟨27, _⟩ => ⟨S_, .f32⟩
  | .hbm, ⟨28, _⟩ => ⟨S50000, .f32⟩
  | .hbm, ⟨29, _⟩ => ⟨S50000x1, .f32⟩
  | .hbm, ⟨30, _⟩ => ⟨S50000x1, .f32⟩
  | .hbm, ⟨31, _⟩ => ⟨S_, .f32⟩
  | .hbm, ⟨32, _⟩ => ⟨S50000x1, .f32⟩
  | .hbm, ⟨33, _⟩ => ⟨S50000x1, .f32⟩
  | .hbm, ⟨34, _⟩ => ⟨S50000x100, .f32⟩
  | .hbm, ⟨35, _⟩ => ⟨S50000x100, .f32⟩
  | _, _ => ⟨S50000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S100x100_S100x100_1_0 : S100x100.Transposes [1, 0] S100x100
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x100_0_1 : S800000x1.BroadcastsInDim S800000x100 (![0, 1] : Fin 2 → Fin S800000x100.rank)
  bcast_S_S50000x100 : S_.BroadcastsInDim S50000x100 (![] : Fin 0 → Fin S50000x100.rank)
  reducesTo_S50000x100_S50000_d1 : S50000x100.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x100_0_1 : S50000x1.BroadcastsInDim S50000x100 (![0, 1] : Fin 2 → Fin S50000x100.rank)
  dot_S50000x100_S100x100_S50000x100_1_0_0_1_n_n_wf : DotDims.WF S50000x100 S100x100 S50000x100 [1] [0] [0] [1] [] []
  gather_S50000x100_S800000x1_S800000x100_1_0_n_n_0_1_1100_wf : GatherDims.WF S50000x100 S800000x1 S800000x100 [1] [0] [] [0] [] 1 ![1, 100]
  scatter_S50000x100_S800000x1_S800000x100_1_0_0_1_wf : ScatterDims.WF S50000x100 S800000x1 S800000x100 [1] [0] [0] 1

variable [Facts₀]

def dot_S50000x100_S100x100_S50000x100_1_0_0_1_n_n : DotDims S50000x100 S100x100 S50000x100 where
  lhsContracting := [1]
  rhsContracting := [0]
  lhsNonContracting := [0]
  rhsNonContracting := [1]
  lhsBatch := []
  rhsBatch := []
  wf := dot_S50000x100_S100x100_S50000x100_1_0_0_1_n_n_wf
def gather_S50000x100_S800000x1_S800000x100_1_0_n_n_0_1_1100 : GatherDims S50000x100 S800000x1 S800000x100 where
  offsetDims := [1]
  collapsedSliceDims := [0]
  operandBatchingDims := []
  startIndicesBatchingDims := []
  startIndexMap := [0]
  indexVectorDim := 1
  sliceSizes := ![1, 100]
  wf := gather_S50000x100_S800000x1_S800000x100_1_0_n_n_0_1_1100_wf
def scatter_S50000x100_S800000x1_S800000x100_1_0_0_1 : ScatterDims S50000x100 S800000x1 S800000x100 where
  updateWindowDims := [1]
  insertedWindowDims := [0]
  scatterDimsToOperandDims := [0]
  indexVectorDim := 1
  wf := scatter_S50000x100_S800000x1_S800000x100_1_0_0_1_wf

class Facts : Prop extends Facts₀ where

variable [Facts]
-- ==== Proof.Spec.lean ====
/-
  The two whole-array functions both programs compute, index by index, over the extended reals.

  `proj x w` is the product of `x` with the transpose of `w`: entry (i, j) is the sum over k of x (i, k) · w (j, k),
  row i of `x` against ROW j of `w`.  `rownorm h` divides each row of `h` by the larger of its Euclidean length and a
  fixed positive floor: entry (i, j) is h (i, j) / max (sqrt (sum over k of h (i, k)²)) floor.  Between the two
  both programs apply one and the same chain of index-driven operations (a gather of rows, a scaling and a
  scatter-add), which is never opened: the result is `rownorm (chain (proj x w))` on both sides.
-/
import Idealize.ShloMosaic.PureOps.Ideal
import Idealize.ShloMosaic.Lib.ValueIdx

noncomputable section

namespace Cert.Spec

open Idealize.ShloMosaic Idealize.ShloMosaic.ValueIdx

/-- Entry (i, j) of `x` times the transpose of `w`: the sum over k of x (i, k) · w (j, k). -/
def proj {A K B : ℕ} (x : FVec Ideal (⟨2, ![A, K]⟩ : Shape) .f32) (w : FVec Ideal (⟨2, ![B, K]⟩ : Shape) .f32) :
    FVec Ideal (⟨2, ![A, B]⟩ : Shape) .f32 :=
  fun j => ∑ k : Fin K, x (ix2 (n0 := A) (j 0) k) * w (ix2 (n0 := B) (j 1) k)

theorem proj_apply {A K B : ℕ} (x : FVec Ideal (⟨2, ![A, K]⟩ : Shape) .f32) (w : FVec Ideal (⟨2, ![B, K]⟩ : Shape) .f32)
    (p : Fin A) (q : Fin B) : proj x w (ix2 p q) = ∑ k : Fin K, x (ix2 p k) * w (ix2 q k) := rfl

/-- The floor under a row's length: the single-precision number nearest 10⁻¹², the same word in both programs. -/
abbrev floor : EReal := Ideal.ofBits .f32 0x2B8CBCCC#32

/-- Entry (i, j) of `h` with every row divided by the larger of its Euclidean length and the floor. -/
def rownorm {A B : ℕ} (h : FVec Ideal (⟨2, ![A, B]⟩ : Shape) .f32) : FVec Ideal (⟨2, ![A, B]⟩ : Shape) .f32 :=
  fun j => Ideal.div (h j) (max (Ideal.sqrt (∑ k : Fin B, h (ix2 (n0 := A) (j 0) k) * h (ix2 (n0 := A) (j 0) k))) floor)

theorem rownorm_apply {A B : ℕ} (h : FVec Ideal (⟨2, ![A, B]⟩ : Shape) .f32) (p : Fin A) (q : Fin B) :
    rownorm h (ix2 p q)
      = Ideal.div (h (ix2 p q)) (max (Ideal.sqrt (∑ k : Fin B, h (ix2 p k) * h (ix2 p k))) floor) := rfl

end Cert.Spec

end
-- ==== Proof.RefSide.lean ====
/-
  The reference's result as the composition: project, then the chain of index-driven operations, then normalise.

  The reference transposes `w` and contracts `x` with it, so entry (i, j) of its product is the sum over k of
  x (i, k) · w (j, k): the projection.  It then gathers rows of the product at the edges' source endpoints, scales each
  gathered row by its edge's weight and scatter-adds the rows into a zero array at the destination endpoints; which
  rows meet depends on the endpoints' values, and nothing here looks inside: the chain is named as one function of the
  product, the weights and the endpoints.  Last it divides each row of the chain's result by the larger of the floor
  and the row's Euclidean length, the length computed as the square root of zero plus the sum of the row's squares.
-/
import proofs.«104455_j36077725286627_1_alg».proof.Proof.Gen.ReferenceIdeal.Read
import proofs.«104455_j36077725286627_1_alg».proof.Proof.Spec

noncomputable section

namespace Cert.ReferenceIdeal.Hand

open Cert.ReferenceIdeal Cert.ReferenceIdeal.Gen Cert.ReferenceIdeal.Read
open Idealize.ShloMosaic Idealize.ShloMosaic.ValueIdx Idealize.ShloMosaic.TcCoe Idealize.SL.Sem

/-- Gather the rows of `H` at the source endpoints, scale each by its edge's weight, scatter-add into zero at the
    destination endpoints: one function of the projected array `H`, the weights `x2` and the endpoints `x3`. -/
def chain (H : (⟨S50000x100, .f32⟩ : BufTy).Contents (Elt Ideal)) (x2 : (⟨S800000, .f32⟩ : BufTy).Contents (Elt Ideal))
    (x3 : (⟨S2x800000, .i32⟩ : BufTy).Contents (Elt Ideal)) : (⟨S50000x100, .f32⟩ : BufTy).Contents (Elt Ideal) :=
  Host.scatterAdd (F := Ideal) scatter_S50000x100_S800000x1_S800000x100_1_0_0_1 (val_main_v16 (F := Ideal))
    (val_main_v17 (F := Ideal) x3)
    (mulf (F := Ideal) (val_main_v14 (F := Ideal) x2)
      (Host.gather gather_S50000x100_S800000x1_S800000x100_1_0_n_n_0_1_1100 H (val_main_v12 (F := Ideal) x3)
        : FVec Ideal S800000x100 .f32))

/-- The scatter's result is the chain applied to the product. -/
theorem scattered_eq (x0 : (⟨S50000x100, .f32⟩ : BufTy).Contents (Elt Ideal)) (x1 : (⟨S100x100, .f32⟩ : BufTy).Contents (Elt Ideal))
    (x2 : (⟨S800000, .f32⟩ : BufTy).Contents (Elt Ideal)) (x3 : (⟨S2x800000, .i32⟩ : BufTy).Contents (Elt Ideal)) :
    val_main_v18 (F := Ideal) x0 x1 x2 x3 = chain (val_main_v5 (F := Ideal) x0 x1) x2 x3 := by
  unfold chain val_main_v18 val_main_v15 val_main_v13
  rfl

/-- The product with the transpose is the projection: the transpose at (k, j) is `w` at (j, k). -/
theorem product_eq (x0 : (⟨S50000x100, .f32⟩ : BufTy).Contents (Elt Ideal)) (x1 : (⟨S100x100, .f32⟩ : BufTy).Contents (Elt Ideal)) :
    val_main_v5 (F := Ideal) x0 x1 = Cert.Spec.proj x0 x1 := by
  funext i
  obtain ⟨p, q, rfl⟩ : ∃ (p : Fin 50000) (q : Fin 100), i = ix2 p q := ⟨i 0, i 1, eq_ix2 i⟩
  rw [val_main_v5_apply, Cert.Spec.proj_apply]
  refine Finset.sum_congr rfl fun k _ => ?_
  rw [val_main_v4_apply]
  have e1 : lidx_main_v5 (ix2 p q) k = ix2 p k := funext fun a => Fin.ext (by
    match a with
    | ⟨0, _⟩ => rfl
    | ⟨1, _⟩ => rfl)
  have e2 : idx_main_v4 (ridx_main_v5 (ix2 p q) k) = ix2 q k := funext fun a => Fin.ext (by
    match a with
    | ⟨0, _⟩ => rfl
    | ⟨1, _⟩ => rfl)
  rw [e1, e2]

/-- Through the two spreadings and the row sum, entry (p, q) reads the summed array at (p, k). -/
theorem row_index (p : Fin 50000) (q : Fin 100) (k : Fin 100) :
    idx_main_v20 (idx_main_v21 (idx_main_v25 (ix2 p q))) k = ix2 p k := funext fun a => Fin.ext (by
  match a with
  | ⟨0, _⟩ => rfl
  | ⟨1, _⟩ => rfl)

/-- The last nine operations are the row normalisation of the scatter's result. -/
theorem normalised_eq (x0 : (⟨S50000x100, .f32⟩ : BufTy).Contents (Elt Ideal)) (x1 : (⟨S100x100, .f32⟩ : BufTy).Contents (Elt Ideal))
    (x2 : (⟨S800000, .f32⟩ : BufTy).Contents (Elt Ideal)) (x3 : (⟨S2x800000, .i32⟩ : BufTy).Contents (Elt Ideal)) :
    val_main_v26 (F := Ideal) x0 x1 x2 x3 = Cert.Spec.rownorm (val_main_v18 (F := Ideal) x0 x1 x2 x3) := by
  funext i
  obtain ⟨p, q, rfl⟩ : ∃ (p : Fin 50000) (q : Fin 100), i = ix2 p q := ⟨i 0, i 1, eq_ix2 i⟩
  rw [val_main_v26_apply, val_main_v25_apply, val_main_v24_apply, val_main_v22_apply, val_main_v21_apply,
    val_main_v20_apply, val_main_v23_apply, val_main_cst_2_apply, val_main_cst_1_apply, Cert.Spec.rownorm_apply]
  have hsum : ∑ k : Fin 100, val_main_v19 (F := Ideal) x0 x1 x2 x3 (idx_main_v20 (idx_main_v21 (idx_main_v25 (ix2 p q))) k)
      = ∑ k : Fin 100, val_main_v18 (F := Ideal) x0 x1 x2 x3 (ix2 p k) * val_main_v18 (F := Ideal) x0 x1 x2 x3 (ix2 p k) :=
    Finset.sum_congr rfl fun k _ => by rw [row_index, val_main_v19_apply]; rfl
  rw [hsum]
  generalize val_main_v18 (F := Ideal) x0 x1 x2 x3 = S
  show Ideal.div (S (ix2 p q)) (max (Ideal.sqrt (Ideal.ofBits .f32 0x00000000#32 + ∑ k : Fin 100, S (ix2 p k) * S (ix2 p k)))
    (Ideal.ofBits .f32 0x2B8CBCCC#32)) = _
  rw [Ideal.ofBits_zero_f32, zero_add]

/-- The reference's result: normalise the chain of the projection of the arguments. -/
theorem result_eq (m : (ℓ : Loc nD τ sig) → Buf (Elt Ideal) ℓ) (c : Dev nD) :
    Cert.ReferenceIdeal.Value.res_main_v26 m c
      = Cert.Spec.rownorm (chain (Cert.Spec.proj (m ((c.tc : Thread nD τ).loc main_arg0)) (m ((c.tc : Thread nD τ).loc main_arg1)))
          (m ((c.tc : Thread nD τ).loc main_arg2)) (m ((c.tc : Thread nD τ).loc main_arg3))) := by
  rw [val_main_v26_eq, normalised_eq, scattered_eq, product_eq]

end Cert.ReferenceIdeal.Hand

end
-- ==== Proof.KRunAll.lean ====
/-
  The kernel program's run, ending with every buffer named.

  The program is four segments: a stretch of index preparation, the projection's grid, the stretch that gathers,
  scales and scatter-adds, and the normalisation's grid.  Every weakly fair execution goes through them in order and
  ends, and at the end every buffer that outlives the grids holds what the last segment boundary's contents say.
  This is the statement the frame is read off from, kept whole: the frame keeps only the four argument arrays, the
  value needs the result array too.
-/
import proofs.«104455_j36077725286627_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, without a fault, in a state where every buffer that outlives the
    grids holds the last segment boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.KernelIdeal.Hand

end
-- ==== Proof.LibMatmul.lean ====
/-
  A matrix product with one contracted axis, accumulated into zero, read at one entry.

  Over the extended reals the product of an A by K matrix and a K by B matrix at entry (p, q) is the sum over k of
  l (p, k) r (k, q): the accumulator is zero, and the contraction index of a product with one contracted axis is
  that axis' coordinate. The lemma is stated for any dimension record whose operand indices are (row, contraction)
  on the left and (contraction, column) on the right, which the four coordinate hypotheses say.
-/
import Idealize.ShloMosaic.PureOps.Ideal.Laws
import Idealize.ShloMosaic.Lib.ValueIdx

noncomputable section

namespace Cert.LibMatmul

open Idealize.ShloMosaic Idealize.ShloMosaic.ValueIdx

/-- Entry (p, q) of a plain matrix product into the zero accumulator is the sum over the contracted axis. -/
theorem matmul_zero_ix2 {A K B : ℕ} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.LibMatmul

end
-- ==== Proof.KProj.lean ====
/-
  The first kernel body's arithmetic, read at one entry.

  The body rounds a 5000 by 100 block of `x` and the whole 100 by 100 `w` to a shorter format (the identity on the
  extended reals), transposes `w`, and multiplies into a zero accumulator.  Entry (p, q) of the product of the block
  with the transpose of `w` is the sum over k of block (p, k) · w (q, k): the transpose read at (k, q) is `w` at (q, k).
-/
import proofs.«104455_j36077725286627_1_alg».proof.Proof.Gen.KernelIdeal.Skeleton
import proofs.«104455_j36077725286627_1_alg».proof.Proof.LibMatmul
import proofs.«104455_j36077725286627_1_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx

/-- The product's left operand is indexed (row, contraction). -/
theorem dotL0 (i : S5000x100.Idx) (q : dot_S5000x100_S100x100_S5000x100_1_0_0_1_n_n.contr.Idx) :
    (dot_S5000x100_S100x100_S5000x100_1_0_0_1_n_n.lhsIdx i q 0).val = (i 0).val := by
  unfold DotDims.lhsIdx
  rw [dif_neg (show ¬(0 : Fin S5000x100.rank) ∈ dot_S5000x100_S100x100_S5000x100_1_0_0_1_n_n.lhsBatch by decide),
    dif_pos (show (0 : Fin S5000x100.rank) ∈ dot_S5000x100_S100x100_S5000x100_1_0_0_1_n_n.lhsNonContracting by decide)]
  rfl
theorem dotL1 (i : S5000x100.Idx) (q : dot_S5000x100_S100x100_S5000x100_1_0_0_1_n_n.contr.Idx) :
    (dot_S5000x100_S100x100_S5000x100_1_0_0_1_n_n.lhsIdx i q 1).val = (q ⟨0, by decide⟩).val :=
  dot_S5000x100_S100x100_S5000x100_1_0_0_1_n_n.lhsIdx_val_of_single rfl i q
/-- The right operand is indexed (contraction, column). -/
theorem dotR0 (i : S5000x100.Idx) (q : dot_S5000x100_S100x100_S5000x100_1_0_0_1_n_n.contr.Idx) :
    (dot_S5000x100_S100x100_S5000x100_1_0_0_1_n_n.rhsIdx i q 0).val = (q ⟨0, by decide⟩).val :=
  dot_S5000x100_S100x100_S5000x100_1_0_0_1_n_n.rhsIdx_val_of_single rfl i q
theorem dotR1 (i : S5000x100.Idx) (q : dot_S5000x100_S100x100_S5000x100_1_0_0_1_n_n.contr.Idx) :
    (dot_S5000x100_S100x100_S5000x100_1_0_0_1_n_n.rhsIdx i q 1).val = (i 1).val := by
  unfold DotDims.rhsIdx
  rw [dif_neg (show ¬(1 : Fin S100x100.rank) ∈ dot_S5000x100_S100x100_S5000x100_1_0_0_1_n_n.rhsBatch by decide),
    dif_pos (show (1 : Fin S100x100.rank) ∈ dot_S5000x100_S100x100_S5000x100_1_0_0_1_n_n.rhsNonContracting by decide)]
  rfl

/-- Entry (p, q) of what the first body stores: row p of the block against row q of `w`. -/
theorem pay0_apply (x0 : FVec Ideal S5000x100 .f32) (x1 : FVec Ideal S100x100 .f32) (p : Fin 5000) (q : Fin 100) :
    k0_pay1 (F := Ideal) x0 x1 (ix2 p q) = ∑ k : Fin 100, x0 (ix2 p k) * x1 (ix2 q k) := by
  unfold k0_pay1
  refine (Cert.LibMatmul.matmul_zero_ix2 dot_S5000x100_S100x100_S5000x100_1_0_0_1_n_n rfl rfl dotL0 dotL1 dotR0 dotR1
    none _ _ p q).trans ?_
  refine Finset.sum_congr rfl fun k _ => ?_
  refine congrArg (x0 (ix2 p k) * ·) ?_
  exact transpose_apply [1, 0] _ transposes_S100x100_p1_0_S100x100 (ix2 k q) (ix2 q k) (fun b => match b with
    | ⟨0, _⟩ => rfl
    | ⟨1, _⟩ => rfl)

/-- A block of rows of the projection.  If `x0` is the block of rows of `A0` that starts at row `b · 5000` and `x1` is
    all of `A1`, then what the body stores at the block's entry `y` is the projection of `A0` and `A1` at the entry `i`
    of the whole array where `y` sits: row `b · 5000 + y₀`, column `y₁`.  Only row `i₀` of `A0` enters, and it is in the block. -/
theorem block0 (A0 : FVec Ideal (⟨2, ![50000, 100]⟩ : Shape) .f32) (A1 : FVec Ideal (⟨2, ![100, 100]⟩ : Shape) .f32)
    (x0 : FVec Ideal S5000x100 .f32) (x1 : FVec Ideal S100x100 .f32) (b : ℕ)
    (hx0 : ∀ (p : Fin 5000) (k : Fin 100) (r : Fin 50000), r.val = b * 5000 + p.val → x0 (ix2 p k) = A0 (ix2 r k))
    (hx1 : x1 = A1)
    (y : S5000x100.Idx) (i : (⟨2, ![50000, 100]⟩ : Shape).Idx)
    (hi0 : (i 0).val = b * 5000 + (y 0).val) (hi1 : (i 1).val = (y 1).val) :
    k0_pay1 (F := Ideal) x0 x1 y = Cert.Spec.proj A0 A1 i := by
  obtain ⟨p, q, rfl⟩ : ∃ (p : Fin 5000) (q : Fin 100), y = ix2 p q := ⟨y 0, y 1, eq_ix2 y⟩
  obtain ⟨r, s, rfl⟩ : ∃ (r : Fin 50000) (s : Fin 100), i = ix2 r s := ⟨i 0, i 1, eq_ix2 i⟩
  have hs : s = q := Fin.ext hi1
  subst hs hx1
  rw [pay0_apply, Cert.Spec.proj_apply]
  exact Finset.sum_congr rfl fun k _ => congrArg (· * x1 (ix2 s k)) (hx0 p k r hi0)

end Cert.KernelIdeal.Hand

end
-- ==== Proof.KBlocks0.lean ====
/-
  Region 0: from the blocks the grid points write to the whole array.

  Grid point t reads rows 5000·t … 5000·t + 4999 of `x` and all of `w`, and writes the same rows of the output; what it
  writes is the projection restricted to those rows, because row i of the projection needs row i of `x` only.
  The ten blocks of 5000 rows tile the 50000 rows (row r is in block r / 5000), so the array ends holding the whole
  function of the arrays the region found.
-/
import proofs.«104455_j36077725286627_1_alg».proof.Proof.Gen.KernelIdeal.Frame
import proofs.«104455_j36077725286627_1_alg».proof.Proof.KProj
import Idealize.ShloMosaic.Lib.Pipeline.Value

set_option maxRecDepth 16384

noncomputable section

namespace Cert.KernelIdeal.Hand

open Cert.KernelIdeal Cert.KernelIdeal.Gen Idealize.ShloMosaic Idealize.ShloMosaic.ValueIdx Idealize.ShloMosaic.TcCoe
open Idealize.SL.Sem
open Idealize.ShloMosaic.Pipeline (Dat Cfg Window)

variable (V : (c : Dev nD) → (b : Ref sig .tc) → Buf (Elt Ideal) ((c : Thread nD τ).loc b))

theorem zero2_0 : (![0, 0] : Fin 2 → Nat) = fun _ => 0 := funext fun a => by fin_cases a <;> rfl

/-- The block indices, decided over the ten grid points: the block of `x` moves with the output's, `w` stays whole,
    and no window moves along the columns. -/
theorem index_facts0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 :=
  (by decide +kernel : ∀ t : Fin grid0.N, _)

/-- Every one of the ten row blocks is some grid point's. -/
theorem index_onto0 : ∀ q0 : Fin 10, ∃ t : Fin cfg0.N, win0_2.index t = ![q0.val, 0] :=
  (by decide +kernel : ∀ q0 : Fin 10, ∃ t : Fin grid0.N, win0_2.index t = ![q0.val, 0])

/-- What grid point `t` writes back is block `t` of the whole-array function of the arrays the region found. -/
theorem flushed0_eq (c : Dev nD) (t : Fin cfg0.N) :
    (dat0 V c).flushed 2 t = ((cfg0.win 2).blk t).view.read (Elt Ideal) (Cert.Spec.proj (V c main_arg0) (V c main_arg1)) := by
  show (cfg0.win 2).cut (grid0.coords t) ((dat0 V c).after 2 t) = _
  rw [after0_2]
  unfold out0_2
  rw [View.canon_unit_zero zero2_0]
  simp only [View.ld_unit_zero (S := S5000x100) zero2_0, View.ld_unit_zero (S := S100x100) zero2_0]
  obtain ⟨e0, e1, e2, e3, e4⟩ := index_facts0 t
  funext j
  show k0_pay1 (F := Ideal) (iblk0 V c 0 t) (iblk0 V c 1 t) j
      = Cert.Spec.proj (V c main_arg0) (V c main_arg1) (((cfg0.win 2).blk t).view.emb j)
  refine block0 (V c main_arg0) (V c main_arg1) (iblk0 V c 0 t) (iblk0 V c 1 t) (win0_2.index t (0 : Fin 2)) ?_ ?_ j
    (((cfg0.win 2).blk t).view.emb j) ?_ ?_
  · intro p k r hr
    show V c main_arg0 (((cfg0.win 0).blk t).view.emb (ix2 p k)) = V c main_arg0 (ix2 r k)
    refine congrArg (V c main_arg0) (funext fun a => Fin.ext ?_)
    match a with
    | ⟨0, _⟩ => show win0_0.index t (0 : Fin 2) * 5000 + 1 * p.val = r.val; omega
    | ⟨1, _⟩ => show win0_0.index t (1 : Fin 2) * 100 + 1 * k.val = k.val; omega
  · funext y
    show V c main_arg1 (((cfg0.win 1).blk t).view.emb y) = V c main_arg1 y
    refine congrArg (V c main_arg1) (funext fun a => Fin.ext ?_)
    match a with
    | ⟨0, _⟩ => show win0_1.index t (0 : Fin 2) * 100 + 1 * (y 0).val = (y 0).val; omega
    | ⟨1, _⟩ => show win0_1.index t (1 : Fin 2) * 100 + 1 * (y 1).val = (y 1).val; omega
  · show win0_2.index t (0 : Fin 2) * 5000 + 1 * (j 0).val = win0_2.index t (0 : Fin 2) * 5000 + (j 0).val; omega
  · show win0_2.index t (1 : Fin 2) * 100 + 1 * (j 1).val = (j 1).val; omega

/-- An entry of the array is in grid point `t`'s block iff each coordinate is in the block's range on its axis. -/
theorem mem_blk0 (t : Fin cfg0.N) (i : S50000x100.Idx) :
    i ∈ ((cfg0.win 2).blk t).view.set ↔ ∀ a : Fin 2, win0_2.index t a * S5000x100.size a ≤ (i a).val
      ∧ (i a).val < win0_2.index t a * S5000x100.size a + S5000x100.size a := by
  show i ∈ ((View.whole main_v4).slice (win0_2.rect t)).set ↔ _
  rw [View.set_slice_whole, Rect.mem_set_unit]
  exact Iff.rfl

/-- Every entry is in some grid point's block: row r is in block r / 5000. -/
theorem cover0 (i : S50000x100.Idx) :
    ∃ t : Fin cfg0.N, (cfg0.win 2).flush t = true ∧ i ∈ ((cfg0.win 2).blk t).view.set := by
  have hi0 : (i 0).val < 50000 := (i 0).isLt
  have hi1 : (i 1).val < 100 := (i 1).isLt
  obtain ⟨t, ht⟩ := index_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 100 ≤ (i 1).val ∧ (i 1).val < win0_2.index t (1 : Fin 2) * 100 + 100
    omega

/-- The region's output array, after the region, is the whole-array function of the arrays the region found. -/
theorem final0 (c : Dev nD) : (dat0 V c).arrAt 2 cfg0.N = Cert.Spec.proj (V c main_arg0) (V c main_arg1) :=
  (dat0 V c).arrAt_eq_of_cover 2 _ (fun t _ => flushed0_eq V c t) (cover0)

end Cert.KernelIdeal.Hand

end
-- ==== Proof.LibKeepdims.lean ====
/-
  A reduction over the last axis kept as a unit axis, read at an index.

  A vector of `a` numbers viewed as an `a × 1` column holds, at (i, u), the vector's entry i, whatever the unit
  coordinate u; and an `a × 1` column spread over `b` columns holds, at (p, c), the column's entry (p, 0): every
  entry of row p is that row's one number. Together they read the common pattern "sum each row, keep the axis,
  combine with the matrix again" at an entry (p, c) as the row sum of row p.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the one entry of the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibRowSum.lean ====
/-
  A sum over the last axis of a matrix, read at one row.

  Summing an `a × b` array along its second axis leaves `a` numbers; the entries of the array that feed the p-th of
  them are (p, 0), (p, 1), …, (p, b − 1).  Over the extended reals the lane reduction with `add` from its neutral
  accumulator is the plain sum of those entries, so read at row p it is the sum over the columns k of the array at
  (p, k).  Stated for any extents and any float format, and for whatever witness of the reduction's shapes the program
  carries.
-/
import Idealize.ShloMosaic.PureOps.Ideal.Laws
import Idealize.ShloMosaic.Lib.ValueIdx

noncomputable section

namespace Cert.LibRowSum

open Idealize.ShloMosaic Idealize.ShloMosaic.ValueIdx

/-- The index of an `[a, b]` array lying over entry `p` of its row sums at column `k` is `(p, k)`. -/
theorem lift_row {a b : ℕ} (h : (⟨2, ![a, b]⟩ : Shape).Reduces [1] (⟨1, ![a]⟩ : Shape)) (p : Fin a) (k : Fin b) :
    h.lift (ix1 p) k = ix2 p k :=
  funext fun c => Fin.ext (by
    match c with
    | ⟨0, _⟩ => rfl
    | ⟨1, _⟩ => rfl)

/-- A lane sum over the last axis of an `[a, b]` array, read at row `p`, is the sum over `k` of the array at `(p, k)`. -/
theorem multiReduction_add_row {a b : ℕ} {φ : FTy} (v : FVec Ideal (⟨2, ![a, b]⟩ : Shape) φ) (acc : BitVec φ.bits)
    (h : (⟨2, ![a, b]⟩ : Shape).Reduces [1] (⟨1, ![a]⟩ : Shape)) (hφ : FKind.Formats φ)
    (hacc : acc = FKind.add.neutral φ hφ) (p : Fin a) :
    multiReduction .add [1] (⟨1, ![a]⟩ : Shape) v acc h hφ hacc (ix1 p) = ∑ k : Fin b, v (ix2 p k) :=
  (Ideal.multiReduction_add_single v acc h hφ hacc (ix1 p)).trans
    (Finset.sum_congr rfl fun k _ => congrArg v (lift_row h p k))

end Cert.LibRowSum

end
-- ==== Proof.KNorm.lean ====
/-
  The second kernel body's arithmetic, read at one entry.

  The body squares a 5000 by 100 block entry by entry, sums each row, keeps the sums as a one-column matrix, takes
  square roots, raises them to a fixed floor, spreads the column back over the 100 columns and divides the block by
  it.  Entry (p, q) of the result is block (p, q) divided by the larger of the floor and the square root of the sum
  over k of block (p, k)²: the one-column matrix at (p, 0) is row p's sum, and every entry of row p of the spread
  matrix is that one number.
-/
import proofs.«104455_j36077725286627_1_alg».proof.Proof.Gen.KernelIdeal.Skeleton
import proofs.«104455_j36077725286627_1_alg».proof.Proof.LibKeepdims
import proofs.«104455_j36077725286627_1_alg».proof.Proof.LibRowSum
import proofs.«104455_j36077725286627_1_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx

/-- Entry (p, q) of what the second body stores: the block's entry over the larger of the floor and row p's length. -/
theorem pay1_apply (x0 : FVec Ideal S5000x100 .f32) (p : Fin 5000) (q : Fin 100) :
    k1_pay1 (F := Ideal) x0 (ix2 p q)
      = Ideal.div (x0 (ix2 p q)) (max (Ideal.sqrt (∑ k : Fin 100, x0 (ix2 p k) * x0 (ix2 p k))) Cert.Spec.floor) := by
  unfold k1_pay1
  dsimp only
  rw [shapeCast_self]
  show Ideal.div (x0 (ix2 p q)) (broadcastTo S5000x100 _ broadcasts_S5000x1_S5000x100 (ix2 p q)) = _
  rw [Cert.LibKeepdims.broadcastTo_a1_ab_apply]
  show Ideal.div (x0 (ix2 p q)) (max (Ideal.sqrt (shapeCast S5000x1 _ shapeCasts_S5000_S5000x1 (ix2 p (0 : Fin 1)))) Cert.Spec.floor) = _
  rw [Cert.LibKeepdims.shapeCast_a_a1_apply]
  refine congrArg (fun z => Ideal.div (x0 (ix2 p q)) (max (Ideal.sqrt z) Cert.Spec.floor)) ?_
  exact Cert.LibRowSum.multiReduction_add_row (mulf x0 x0) 0x00000000#32 reduces_S5000x100_S5000 _ _ p

/-- A block of rows of the normalisation.  If `x0` is the block of rows of `A` that starts at row `b · 5000`, then what
    the body stores at the block's entry `y` is the row normalisation of `A` at the entry `i` of the whole array where
    `y` sits: a row's length needs that row only, and the whole row is in the block. -/
theorem block1 (A : FVec Ideal (⟨2, ![50000, 100]⟩ : Shape) .f32) (x0 : FVec Ideal S5000x100 .f32) (b : ℕ)
    (hx0 : ∀ (p : Fin 5000) (k : Fin 100) (r : Fin 50000), r.val = b * 5000 + p.val → x0 (ix2 p k) = A (ix2 r k))
    (y : S5000x100.Idx) (i : (⟨2, ![50000, 100]⟩ : Shape).Idx)
    (hi0 : (i 0).val = b * 5000 + (y 0).val) (hi1 : (i 1).val = (y 1).val) :
    k1_pay1 (F := Ideal) x0 y = Cert.Spec.rownorm A i := by
  obtain ⟨p, q, rfl⟩ : ∃ (p : Fin 5000) (q : Fin 100), y = ix2 p q := ⟨y 0, y 1, eq_ix2 y⟩
  obtain ⟨r, s, rfl⟩ : ∃ (r : Fin 50000) (s : Fin 100), i = ix2 r s := ⟨i 0, i 1, eq_ix2 i⟩
  have hs : s = q := Fin.ext hi1
  subst hs
  rw [pay1_apply, Cert.Spec.rownorm_apply]
  have h : ∀ k : Fin 100, x0 (ix2 p k) = A (ix2 r k) := fun k => hx0 p k r hi0
  simp only [h]

end Cert.KernelIdeal.Hand

end
-- ==== Proof.KBlocks1.lean ====
/-
  Region 1: from the blocks the grid points write to the whole array.

  Grid point t reads rows 5000·t … 5000·t + 4999 of its input and writes the same rows of the output; what it writes
  is the row normalisation restricted to those rows, because a row's length needs that row only.
  The ten blocks of 5000 rows tile the 50000 rows (row r is in block r / 5000), so the array ends holding the whole
  function of the arrays the region found.
-/
import proofs.«104455_j36077725286627_1_alg».proof.Proof.Gen.KernelIdeal.Frame
import proofs.«104455_j36077725286627_1_alg».proof.Proof.KNorm
import Idealize.ShloMosaic.Lib.Pipeline.Value

set_option maxRecDepth 16384

noncomputable section

namespace Cert.KernelIdeal.Hand

open Cert.KernelIdeal Cert.KernelIdeal.Gen Idealize.ShloMosaic Idealize.ShloMosaic.ValueIdx Idealize.ShloMosaic.TcCoe
open Idealize.SL.Sem
open Idealize.ShloMosaic.Pipeline (Dat Cfg Window)

variable (V : (c : Dev nD) → (b : Ref sig .tc) → Buf (Elt Ideal) ((c : Thread nD τ).loc b))

theorem zero2_1 : (![0, 0] : Fin 2 → Nat) = fun _ => 0 := funext fun a => by fin_cases a <;> rfl

/-- The block indices, decided over the ten grid points: the input's block moves with the output's,
    and no window moves along the columns. -/
theorem index_facts1 : ∀ t : Fin cfg1.N, win1_0.index t (0 : Fin 2) = win1_1.index t (0 : Fin 2)
    ∧ win1_0.index t (1 : Fin 2) = 0 ∧ win1_1.index t (1 : Fin 2) = 0 :=
  (by decide +kernel : ∀ t : Fin grid1.N, _)

/-- Every one of the ten row blocks is some grid point's. -/
theorem index_onto1 : ∀ q0 : Fin 10, ∃ t : Fin cfg1.N, win1_1.index t = ![q0.val, 0] :=
  (by decide +kernel : ∀ q0 : Fin 10, ∃ t : Fin grid1.N, win1_1.index t = ![q0.val, 0])

/-- What grid point `t` writes back is block `t` of the whole-array function of the arrays the region found. -/
theorem flushed1_eq (c : Dev nD) (t : Fin cfg1.N) :
    (dat1 V c).flushed 1 t = ((cfg1.win 1).blk t).view.read (Elt Ideal) (Cert.Spec.rownorm (V c main_v17)) := by
  show (cfg1.win 1).cut (grid1.coords t) ((dat1 V c).after 1 t) = _
  rw [after1_1]
  unfold out1_1
  rw [View.canon_unit_zero zero2_1]
  simp only [View.ld_unit_zero (S := S5000x100) zero2_1]
  obtain ⟨e0, e1, e4⟩ := index_facts1 t
  funext j
  show k1_pay1 (F := Ideal) (iblk1 V c 0 t) j = Cert.Spec.rownorm (V c main_v17) (((cfg1.win 1).blk t).view.emb j)
  refine block1 (V c main_v17) (iblk1 V c 0 t) (win1_1.index t (0 : Fin 2)) ?_ j
    (((cfg1.win 1).blk t).view.emb j) ?_ ?_
  · intro p k r hr
    show V c main_v17 (((cfg1.win 0).blk t).view.emb (ix2 p k)) = V c main_v17 (ix2 r k)
    refine congrArg (V c main_v17) (funext fun a => Fin.ext ?_)
    match a with
    | ⟨0, _⟩ => show win1_0.index t (0 : Fin 2) * 5000 + 1 * p.val = r.val; omega
    | ⟨1, _⟩ => show win1_0.index t (1 : Fin 2) * 100 + 1 * k.val = k.val; omega
  · show win1_1.index t (0 : Fin 2) * 5000 + 1 * (j 0).val = win1_1.index t (0 : Fin 2) * 5000 + (j 0).val; omega
  · show win1_1.index t (1 : Fin 2) * 100 + 1 * (j 1).val = (j 1).val; omega

/-- An entry of the array is in grid point `t`'s block iff each coordinate is in the block's range on its axis. -/
theorem mem_blk1 (t : Fin cfg1.N) (i : S50000x100.Idx) :
    i ∈ ((cfg1.win 1).blk t).view.set ↔ ∀ a : Fin 2, win1_1.index t a * S5000x100.size a ≤ (i a).val
      ∧ (i a).val < win1_1.index t a * S5000x100.size a + S5000x100.size a := by
  show i ∈ ((View.whole main_v18).slice (win1_1.rect t)).set ↔ _
  rw [View.set_slice_whole, Rect.mem_set_unit]
  exact Iff.rfl

/-- Every entry is in some grid point's block: row r is in block r / 5000. -/
theorem cover1 (i : S50000x100.Idx) :
    ∃ t : Fin cfg1.N, (cfg1.win 1).flush t = true ∧ i ∈ ((cfg1.win 1).blk t).view.set := by
  have hi0 : (i 0).val < 50000 := (i 0).isLt
  have hi1 : (i 1).val < 100 := (i 1).isLt
  obtain ⟨t, ht⟩ := index_onto1 ⟨(i 0).val / 5000, by omega⟩
  have q0 : win1_1.index t (0 : Fin 2) = (i 0).val / 5000 := congrFun ht 0
  have q1 : win1_1.index t (1 : Fin 2) = 0 := congrFun ht 1
  refine ⟨t, flush1_1 t, ?_⟩
  rw [mem_blk1]
  intro a
  match a with
  | ⟨0, _⟩ =>
    show win1_1.index t (0 : Fin 2) * 5000 ≤ (i 0).val ∧ (i 0).val < win1_1.index t (0 : Fin 2) * 5000 + 5000
    omega
  | ⟨1, _⟩ =>
    show win1_1.index t (1 : Fin 2) * 100 ≤ (i 1).val ∧ (i 1).val < win1_1.index t (1 : Fin 2) * 100 + 100
    omega

/-- The region's output array, after the region, is the whole-array function of the arrays the region found. -/
theorem final1 (c : Dev nD) : (dat1 V c).arrAt 1 cfg1.N = Cert.Spec.rownorm (V c main_v17) :=
  (dat1 V c).arrAt_eq_of_cover 1 _ (fun t _ => flushed1_eq V c t) (cover1)

end Cert.KernelIdeal.Hand

end
-- ==== Proof.KFold.lean ====
/-
  The kernel program's result array, read back through the four segments to the arguments.

  After the first stretch the two rows of the endpoint array sit in buffers of their own.  The first grid leaves the
  projection of the arguments in its output array.  The second stretch gathers rows of that array at the source
  endpoints, scales them by the weights and scatter-adds them at the destination endpoints: the same chain of
  operations as the reference's, applied to equal operands, so it is named by the same function and never opened.  The
  second grid leaves the row normalisation of the chain's result in the result array.  No segment writes an argument.
-/
import proofs.«104455_j36077725286627_1_alg».proof.Proof.KRunAll
import proofs.«104455_j36077725286627_1_alg».proof.Proof.KBlocks0
import proofs.«104455_j36077725286627_1_alg».proof.Proof.KBlocks1
import proofs.«104455_j36077725286627_1_alg».proof.Proof.RefSide
import Idealize.ShloMosaic.Lib.StableHlo.Run
import Idealize.ShloMosaic.PureOps.Ideal

set_option maxRecDepth 16384

noncomputable section

namespace Cert.KernelIdeal.Hand

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The second stretch as this program spells it: gather the rows of `H` at the source endpoints `src` (an endpoint
    below zero counted from the end), scale by the weights `ew`, scatter-add into zero at the destinations `dst`. -/
def ktail (H : (⟨S50000x100, .f32⟩ : BufTy).Contents (Elt Ideal)) (ew : (⟨S800000, .f32⟩ : BufTy).Contents (Elt Ideal))
    (dst src : (⟨S800000, .i32⟩ : BufTy).Contents (Elt Ideal)) : (⟨S50000x100, .f32⟩ : BufTy).Contents (Elt Ideal) :=
  Host.scatterAdd (F := Ideal) scatter_S50000x100_S800000x1_S800000x100_1_0_0_1
    (broadcastInDim S50000x100 ![] bcast_S_S50000x100 (constant (F := Ideal) S_ .f32 0x00000000#32))
    (broadcastInDim S800000x1 ![0] bcast_S800000_S800000x1_0 dst)
    (mulf (F := Ideal)
      (broadcastInDim S800000x100 ![0, 1] bcast_S800000x1_S800000x100_0_1
        (broadcastInDim S800000x1 ![0] bcast_S800000_S800000x1_0 ew))
      (Host.gather gather_S50000x100_S800000x1_S800000x100_1_0_n_n_0_1_1100 H
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32)))
            src)) : FVec Ideal S800000x100 .f32))

/-- It is the reference's chain, on the endpoint rows as the reference slices them: the two programs print the same
    operations with the same dimension records, each under its own names. -/
theorem ktail_eq_chain (H : (⟨S50000x100, .f32⟩ : BufTy).Contents (Elt Ideal)) (ew : (⟨S800000, .f32⟩ : BufTy).Contents (Elt Ideal))
    (x3 : (⟨S2x800000, .i32⟩ : BufTy).Contents (Elt Ideal)) :
    ktail H ew (Cert.ReferenceIdeal.Read.val_main_v1 (F := Ideal) x3) (Cert.ReferenceIdeal.Read.val_main_v3 (F := Ideal) x3)
      = Cert.ReferenceIdeal.Hand.chain H ew x3 := by
  unfold ktail Cert.ReferenceIdeal.Hand.chain Cert.ReferenceIdeal.Read.val_main_v16 Cert.ReferenceIdeal.Read.val_main_v17 Cert.ReferenceIdeal.Read.val_main_v14 Cert.ReferenceIdeal.Read.val_main_v12
    Cert.ReferenceIdeal.Read.val_main_v11 Cert.ReferenceIdeal.Read.val_main_v10 Cert.ReferenceIdeal.Read.val_main_v9 Cert.ReferenceIdeal.Read.val_main_v8 Cert.ReferenceIdeal.Read.val_main_v7 Cert.ReferenceIdeal.Read.val_main_v6
    Cert.ReferenceIdeal.Read.val_main_cst Cert.ReferenceIdeal.Read.val_main_c Cert.ReferenceIdeal.Read.val_main_c_0
  rfl

/-! ## The first stretch: the arguments stay, the endpoint rows are sliced out -/

theorem W1_arg0 (c : Dev nD) : W1 m ρ c (Proc.devRef .tc main_arg0) = m ((c : Thread nD τ).loc main_arg0) := by
  show StableHlo.after hostOps0 (W0 m ρ c) (Proc.devRef .tc main_arg0) = _
  after_results
theorem W1_arg1 (c : Dev nD) : W1 m ρ c (Proc.devRef .tc main_arg1) = m ((c : Thread nD τ).loc main_arg1) := by
  show StableHlo.after hostOps0 (W0 m ρ c) (Proc.devRef .tc main_arg1) = _
  after_results
theorem W1_arg2 (c : Dev nD) : W1 m ρ c (Proc.devRef .tc main_arg2) = m ((c : Thread nD τ).loc main_arg2) := by
  show StableHlo.after hostOps0 (W0 m ρ c) (Proc.devRef .tc main_arg2) = _
  after_results
/-- The destination endpoints: row 0 of the endpoint array. -/
theorem W1_v1 (c : Dev nD) :
    W1 m ρ c (Proc.devRef .tc main_v1) = Cert.ReferenceIdeal.Read.val_main_v1 (F := Ideal) (m ((c : Thread nD τ).loc main_arg3)) := by
  show StableHlo.after hostOps0 (W0 m ρ c) (Proc.devRef .tc main_v1) = _
  after_results
  unfold Cert.ReferenceIdeal.Read.val_main_v1 Cert.ReferenceIdeal.Read.val_main_v0
  rfl
/-- The source endpoints: row 1. -/
theorem W1_v3 (c : Dev nD) :
    W1 m ρ c (Proc.devRef .tc main_v3) = Cert.ReferenceIdeal.Read.val_main_v3 (F := Ideal) (m ((c : Thread nD τ).loc main_arg3)) := by
  show StableHlo.after hostOps0 (W0 m ρ c) (Proc.devRef .tc main_v3) = _
  after_results
  unfold Cert.ReferenceIdeal.Read.val_main_v3 Cert.ReferenceIdeal.Read.val_main_v2
  rfl

/-! ## The first grid: its output array ends at the projection; it writes nothing else -/

theorem W2_v4 (c : Dev nD) : W2 m ρ c (Proc.devRef .tc main_v4) = Cert.Spec.proj (m ((c : Thread nD τ).loc main_arg0)) (m ((c : Thread nD τ).loc main_arg1)) := by
  refine (W2_arr m ρ c 2).trans ((final0 (V1 m ρ) c).trans ?_)
  show Cert.Spec.proj (W1 m ρ c (Proc.devRef .tc main_arg0)) (W1 m ρ c (Proc.devRef .tc main_arg1)) = _
  rw [W1_arg0, W1_arg1]
theorem W2_arg2 (c : Dev nD) : W2 m ρ c (Proc.devRef .tc main_arg2) = m ((c : Thread nD τ).loc main_arg2) :=
  (W2_of_ne m ρ c main_arg2 (by decide)).trans (W1_arg2 m ρ c)
theorem W2_v1 (c : Dev nD) : W2 m ρ c (Proc.devRef .tc main_v1) = Cert.ReferenceIdeal.Read.val_main_v1 (F := Ideal) (m ((c : Thread nD τ).loc main_arg3)) :=
  (W2_of_ne m ρ c main_v1 (by decide)).trans (W1_v1 m ρ c)
theorem W2_v3 (c : Dev nD) : W2 m ρ c (Proc.devRef .tc main_v3) = Cert.ReferenceIdeal.Read.val_main_v3 (F := Ideal) (m ((c : Thread nD τ).loc main_arg3)) :=
  (W2_of_ne m ρ c main_v3 (by decide)).trans (W1_v3 m ρ c)

/-! ## The second stretch: the chain, applied to the projection -/

theorem W3_v17 (c : Dev nD) : W3 m ρ c (Proc.devRef .tc main_v17)
    = ktail (W2 m ρ c (Proc.devRef .tc main_v4)) (W2 m ρ c (Proc.devRef .tc main_arg2))
        (W2 m ρ c (Proc.devRef .tc main_v1)) (W2 m ρ c (Proc.devRef .tc main_v3)) := by
  show StableHlo.after hostOps1 (W2 m ρ c) (Proc.devRef .tc main_v17) = _
  after_results
  unfold ktail
  rfl

theorem W3_chain (c : Dev nD) : W3 m ρ c (Proc.devRef .tc main_v17)
    = Cert.ReferenceIdeal.Hand.chain (Cert.Spec.proj (m ((c : Thread nD τ).loc main_arg0)) (m ((c : Thread nD τ).loc main_arg1))) (m ((c : Thread nD τ).loc main_arg2)) (m ((c : Thread nD τ).loc main_arg3)) := by
  rw [W3_v17, W2_v4, W2_arg2, W2_v1, W2_v3]
  exact ktail_eq_chain _ _ _

/-! ## The second grid: the result array ends at the row normalisation of what the chain left -/

theorem W4_result (c : Dev nD) : W4 m ρ c (Proc.devRef .tc main_v18) = Cert.Spec.rownorm (Cert.ReferenceIdeal.Hand.chain (Cert.Spec.proj (m ((c : Thread nD τ).loc main_arg0)) (m ((c : Thread nD τ).loc main_arg1))) (m ((c : Thread nD τ).loc main_arg2)) (m ((c : Thread nD τ).loc main_arg3))) := by
  refine (W4_arr m ρ c 1).trans ((final1 (V3 m ρ) c).trans ?_)
  show Cert.Spec.rownorm (W3 m ρ c (Proc.devRef .tc main_v17)) = _
  rw [W3_chain]

/-! ## The run, with the result named -/

/-- Every weakly fair execution of the kernel program ends, without a fault, with the result array at the row
    normalisation of the chain of the projection of the arguments, and the arguments as launched. -/
theorem run_value : θ_run defs (onTc (τ := τ) (main (F := Ideal))) ⟨m, fun _ => 0, ρ⟩ (fun r => ∀ c : Dev nD,
      r.2.mem ((c.tc : Thread nD τ).loc main_v18) = Cert.Spec.rownorm (Cert.ReferenceIdeal.Hand.chain (Cert.Spec.proj (m ((c.tc : Thread nD τ).loc main_arg0)) (m ((c.tc : Thread nD τ).loc main_arg1))) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨(h c _ (mem_uc main_v18 (by decide))).trans (W4_result m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)
    (run_all m ρ)

end Cert.KernelIdeal.Hand

end
-- ==== Proof.lean ====
/-
  A one-layer graph convolution with row normalisation: kernel against reference, over the extended reals.

  Both programs compute, from node features `x` (50000 by 100), a weight matrix `w` (100 by 100), edge weights and edge
  endpoints (800000 edges),

      result = rownorm (chain (proj x w)),

  where `proj x w` is `x` times the transpose of `w` (entry (i, j) the sum over k of x (i, k) · w (j, k)), `chain` gathers
  the rows of its operand at the edges' source endpoints, scales each by its edge's weight and adds it into the row of
  its destination endpoint, and `rownorm` divides each row by the larger of its Euclidean length and a fixed floor.

  The kernel computes the projection and the normalisation on two grids of ten blocks of 5000 rows each, rounding the
  projection's operands to a shorter format first; the reference computes both on whole arrays.  Over the extended
  reals the rounding is the identity, a product into a zero accumulator is a plain sum over the contracted axis, and
  both a row's projection and a row's length need that row only, so each block the kernel writes is the restriction
  of the whole-array function and the ten blocks tile the array.  The chain in the middle is the same sequence of
  operations in both programs, applied to equal operands; it is carried as one function and never opened.  The only
  laws used are that a sum may be reindexed and that zero plus a sum is the sum: nothing needs the inputs to be finite.

  The three frames: the two kernel programs' are the generated ones; the reference has no grid, and its frame is its run
  with the result dropped.  The kernel's idealisation rewrote no operation, so that conjunct is `True`.
-/
import proofs.«104455_j36077725286627_1_alg».proof.Defs
import proofs.«104455_j36077725286627_1_alg».proof.Proof.Gen.Kernel
import proofs.«104455_j36077725286627_1_alg».proof.Proof.Gen.Kernel.Skeleton
import proofs.«104455_j36077725286627_1_alg».proof.Proof.Gen.Kernel.Launch
import proofs.«104455_j36077725286627_1_alg».proof.Proof.Gen.Kernel.Points
import proofs.«104455_j36077725286627_1_alg».proof.Proof.Gen.Kernel.Frame
import proofs.«104455_j36077725286627_1_alg».proof.Proof.Gen.KernelIdeal
import proofs.«104455_j36077725286627_1_alg».proof.Proof.Gen.KernelIdeal.Skeleton
import proofs.«104455_j36077725286627_1_alg».proof.Proof.Gen.KernelIdeal.Launch
import proofs.«104455_j36077725286627_1_alg».proof.Proof.Gen.KernelIdeal.Points
import proofs.«104455_j36077725286627_1_alg».proof.Proof.Gen.KernelIdeal.Frame
import proofs.«104455_j36077725286627_1_alg».proof.Proof.Gen.ReferenceIdeal
import proofs.«104455_j36077725286627_1_alg».proof.Proof.Gen.ReferenceIdeal.Run
import proofs.«104455_j36077725286627_1_alg».proof.Proof.Gen.ReferenceIdeal.Read
import proofs.«104455_j36077725286627_1_alg».proof.Proof.Gen.Pre_finite_inputs
import proofs.«104455_j36077725286627_1_alg».proof.Proof.RefSide
import proofs.«104455_j36077725286627_1_alg».proof.Proof.KFold
import Idealize.ShloMosaic.Adequacy
import Idealize.ShloMosaic.Init

noncomputable section

namespace Cert.Proof

open Idealize.ShloMosaic Idealize.SL.Sem

/-- The kernel as printed runs and leaves its arguments. -/
theorem frame_kernel : Cert.frame_Kernel := fun m ρ _ => Cert.Kernel.Gen.frame m ρ

/-- So does its idealisation. -/
theorem frame_kernelIdeal : Cert.frame_KernelIdeal := fun m ρ _ => Cert.KernelIdeal.Gen.frame m ρ

/-- The reference runs and leaves its arguments: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote nothing. -/
theorem preserves : Cert.preserves_Kernel_KernelIdeal := trivial

/-- From memories that agree on the arguments both programs end with the result at
    `rownorm (chain (proj x w))` of those arguments. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Hand.result_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
